-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S_ : Shape := ⟨0, ![]⟩

class Facts : Prop where
  bcast_S_S128x64x64x2 : S_.BroadcastsInDim S128x64x64x2 (![] : Fin 0 → Fin S128x64x64x2.rank)
  reducesTo_S128x64x64x2_S_d0_1_2_3 : S128x64x64x2.ReducesTo [0, 1, 2, 3] S_
  h_S_ : 0 < S_.numel
  bcast_S_S128x64x128 : S_.BroadcastsInDim S128x64x128 (![] : Fin 0 → Fin S128x64x128.rank)
  reducesTo_S128x64x128_S_d0_1_2 : S128x64x128.ReducesTo [0, 1, 2] S_
  bcast_S_S128x64x64 : S_.BroadcastsInDim S128x64x64 (![] : Fin 0 → Fin S128x64x64.rank)
  reducesTo_S128x64x64_S_d0_1_2 : S128x64x64.ReducesTo [0, 1, 2] S_
  bcast_S_S128x258 : S_.BroadcastsInDim S128x258 (![] : Fin 0 → Fin S128x258.rank)
  reducesTo_S128x258_S_d0_1 : S128x258.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x258 1) : IVec S_ 1 :=
  let main_c_5 : IVec S_ 1 := constantI S_ 1 1#1
  let main_v17 : IVec S_ 1 := (fun x v => Host.reduce IntOp.andi x v reducesTo_S128x258_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S128x64x64x2 .f32) (main_arg1 : FVec F S128x64x128 .f32) (main_arg2 : FVec F S128x64x64 .f32) (main_arg3 : FVec F S128x258 .f32) (main_arg4 : FVec F S128 .f32) : IVec S_ 1 :=
  let main_v0 : FVec F S128x64x64x2 .f32 := Host.absf main_arg0
  let main_cst : FVec F S_ .f32 := constant S_ .f32 0x7F800000#32
  let main_v1 : FVec F S128x64x64x2 .f32 := broadcastInDim S128x64x64x2 ![] bcast_S_S128x64x64x2 main_cst
  let main_v2 : IVec S128x64x64x2 1 := cmpf .olt main_v0 main_v1
  let main_c : IVec S_ 1 := constantI S_ 1 1#1
  let main_v3 : IVec S_ 1 := (fun x v => Host.reduce IntOp.andi x v reducesTo_S128x64x64x2_S_d0_1_2_3 h_S_) main_v2 main_c
  let main_v4 : FVec F S128x64x128 .f32 := Host.absf main_arg1
  let main_cst_0 : FVec F S_ .f32 := constant S_ .f32 0x7F800000#32
  let main_v5 : FVec F S128x64x128 .f32 := broadcastInDim S128x64x128 ![] bcast_S_S128x64x128 main_cst_0
  let main_v6 : IVec S128x64x128 1 := cmpf .olt main_v4 main_v5
  let main_c_1 : IVec S_ 1 := constantI S_ 1 1#1
  let main_v7 : IVec S_ 1 := (fun x v => Host.reduce IntOp.andi x v reducesTo_S128x64x128_S_d0_1_2 h_S_) main_v6 main_c_1
  let main_v8 : IVec S_ 1 := andi main_v3 main_v7
  let main_v9 : FVec F S128x64x64 .f32 := Host.absf main_arg2
  let main_cst_2 : FVec F S_ .f32 := constant S_ .f32 0x7F800000#32
  let main_v10 : FVec F S128x64x64 .f32 := broadcastInDim S128x64x64 ![] bcast_S_S128x64x64 main_cst_2
  let main_v11 : IVec S128x64x64 1 := cmpf .olt main_v9 main_v10
  let main_c_3 : IVec S_ 1 := constantI S_ 1 1#1
  let main_v12 : IVec S_ 1 := (fun x v => Host.reduce IntOp.andi x v reducesTo_S128x64x64_S_d0_1_2 h_S_) main_v11 main_c_3
  let main_v13 : IVec S_ 1 := andi main_v8 main_v12
  let main_v14 : FVec F S128x258 .f32 := Host.absf main_arg3
  let main_cst_4 : FVec F S_ .f32 := constant S_ .f32 0x7F800000#32
  let main_v15 : FVec F S128x258 .f32 := broadcastInDim S128x258 ![] bcast_S_S128x258 main_cst_4
  let main_v16 : IVec S128x258 1 := cmpf .olt main_v14 main_v15
  fn_part1 (F := F) main_arg4 main_v13 main_v16
-- ==== Kernel.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S1x64x64x2 : Shape := ⟨4, ![1, 64, 64, 2]⟩
abbrev S1x64x128 : Shape := ⟨3, ![1, 64, 128]⟩
abbrev S1x64x64 : Shape := ⟨3, ![1, 64, 64]⟩
abbrev S64x64x2 : Shape := ⟨3, ![64, 64, 2]⟩
abbrev S64x128 : Shape := ⟨2, ![64, 128]⟩
abbrev S64x64 : Shape := ⟨2, ![64, 64]⟩
abbrev S128x128 : Shape := ⟨2, ![128, 128]⟩
abbrev S128x2 : Shape := ⟨2, ![128, 2]⟩
abbrev S1x128 : Shape := ⟨2, ![1, 128]⟩
abbrev S64x64x1 : Shape := ⟨3, ![64, 64, 1]⟩
abbrev S64x2 : Shape := ⟨2, ![64, 2]⟩
abbrev S128x1 : Shape := ⟨2, ![128, 1]⟩
abbrev S64x1 : Shape := ⟨2, ![64, 1]⟩

abbrev nBuf : Space → Nat
  | .hbm => 6
  | .vmem => 10
  | .smem => 0
  | _ => 0

abbrev bufTy : (tb : Table) → Fin (tcTables nBuf tb) → BufTy
  | .hbm, ⟨0, _⟩ => ⟨S128x64x64x2, .f32⟩
  | .hbm, ⟨1, _⟩ => ⟨S128x64x128, .f32⟩
  | .hbm, ⟨2, _⟩ => ⟨S128x64x64, .f32⟩
  | .hbm, ⟨3, _⟩ => ⟨S128x258, .f32⟩
  | .hbm, ⟨4, _⟩ => ⟨S128, .f32⟩
  | .hbm, ⟨5, _⟩ => ⟨S128x64x128, .f32⟩
  | .local _ .vmem, ⟨0, _⟩ => ⟨S1x64x64x2, .f32⟩
  | .local _ .vmem, ⟨1, _⟩ => ⟨S1x64x64x2, .f32⟩
  | .local _ .vmem, ⟨2, _⟩ => ⟨S1x64x128, .f32⟩
  | .local _ .vmem, ⟨3, _⟩ => ⟨S1x64x128, .f32⟩
  | .local _ .vmem, ⟨4, _⟩ => ⟨S1x64x64, .f32⟩
  | .local _ .vmem, ⟨5, _⟩ => ⟨S1x64x64, .f32⟩
  | .local _ .vmem, ⟨6, _⟩ => ⟨S128x258, .f32⟩
  | .local _ .vmem, ⟨7, _⟩ => ⟨S128, .f32⟩
  | .local _ .vmem, ⟨8, _⟩ => ⟨S1x64x128, .f32⟩
  | .local _ .vmem, ⟨9, _⟩ => ⟨S1x64x128, .f32⟩
  | _, _ => ⟨S128x64x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x258 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x64x64x2_S1x64x64x2_0_0_0_0 : ∀ a, (![0, 0, 0, 0] : Fin 4 → Nat) a + S1x64x64x2.size a ≤ S1x64x64x2.size a
  h_S1x64x64x2 : 0 < S1x64x64x2.numel
  shapeCasts_S1x64x64x2_S64x64x2 : S1x64x64x2.ShapeCasts S64x64x2
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S128x258_S128x258_0_0 : ∀ a, (![0, 0] : Fin 2 → Nat) a + S128x258.size a ≤ S128x258.size a
  h_S128x258 : 0 < S128x258.numel
  inb_S128_S128_0 : ∀ a, (![0] : Fin 1 → Nat) a + S128.size a ≤ S128.size a
  h_S128 : 0 < S128.numel
  slices_S128x258_o0_0_S128x128 : S128x258.Slices ![0, 0] S128x128
  slices_S128x258_o0_128_S128x128 : S128x258.Slices ![0, 128] S128x128
  slices_S128x258_o0_256_S128x2 : S128x258.Slices ![0, 256] S128x2
  bitsLt_bf16_f32 : FTy.bits .bf16 < FTy.bits .f32
  transposes_S128x128_p1_0_S128x128 : S128x128.Transposes [1, 0] S128x128
  shapeCasts_S128_S1x128 : S128.ShapeCasts S1x128
  broadcasts_S1x128_S64x128 : S1x128.Broadcasts S64x128
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  broadcasts_S64x64x1_S64x64x2 : S64x64x1.Broadcasts S64x64x2
  reduces_S64x64x2_S64x2 : S64x64x2.Reduces [1] S64x2
  slices_S128x2_o0_0_S128x1 : S128x2.Slices ![0, 0] S128x1
  shapeCasts_S128x1_S128 : S128x1.ShapeCasts S128
  slices_S128x2_o0_1_S128x1 : S128x2.Slices ![0, 1] S128x1
  slices_S64x2_o0_0_S64x1 : S64x2.Slices ![0, 0] S64x1
  broadcasts_S64x1_S64x128 : S64x1.Broadcasts S64x128
  slices_S64x2_o0_1_S64x1 : S64x2.Slices ![0, 1] S64x1
  shapeCasts_S64x128_S1x64x128 : S64x128.ShapeCasts S1x64x128
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x2.size a ≤ S128x64x64x2.size a
  hwx0_0 : ∀ i : grid0.Coords, EltTy.bits .f32 = 32 ∨ (Rect.block (s := S128x64x64x2) S1x64x64x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S128x64x128.size a
  hwx0_1 : ∀ i : grid0.Coords, EltTy.bits .f32 = 32 ∨ (Rect.block (s := S128x64x128) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S128x64x64.size a
  hwx0_2 : ∀ i : grid0.Coords, EltTy.bits .f32 = 32 ∨ (Rect.block (s := S128x64x64) S1x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x258.size a ≤ S128x258.size a
  hwx0_3 : ∀ i : grid0.Coords, EltTy.bits .f32 = 32 ∨ (Rect.block (s := S128x258) S128x258.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S128x64x128.size a
  hwx0_5 : ∀ i : grid0.Coords, EltTy.bits .f32 = 32 ∨ (Rect.block (s := S128x64x128) S1x64x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg0) S1x64x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x258.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x64x64x2 : Shape := ⟨4, ![128, 64, 64, 2]⟩
abbrev S128x64x128 : Shape := ⟨3, ![128, 64, 128]⟩
abbrev S128x64x64 : Shape := ⟨3, ![128, 64, 64]⟩
abbrev S128x258 : Shape := ⟨2, ![128, 258]⟩
abbrev S128 : Shape := ⟨1, ![128]⟩
abbrev S128x64x1x128 : Shape := ⟨4, ![128, 64, 1, 128]⟩
abbrev S128x64x64x128 : Shape := ⟨4, ![128, 64, 64, 128]⟩
abbrev S128x1x64x128 : Shape := ⟨4, ![128, 1, 64, 128]⟩
abbrev S128x64x64x1 : Shape := ⟨4, ![128, 64, 64, 1]⟩
abbrev S128x64x64x130 : Shape := ⟨4, ![128, 64, 64, 130]⟩
abbrev S128x64x64x258 : Shape := ⟨4, ![128, 64, 64, 258]⟩
abbrev S1x1x1x128 : Shape := ⟨4, ![1, 1, 1, 128]⟩
abbrev S64x64 : Shape := ⟨2, ![64, 64]⟩
abbrev S_ : Shape := ⟨0, ![]⟩
abbrev S1x64x64x1 : Shape := ⟨4, ![1, 64, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S128x64x64x2, .f32⟩
  | .hbm, ⟨1, _⟩ => ⟨S128x64x128, .f32⟩
  | .hbm, ⟨2, _⟩ => ⟨S128x64x64, .f32⟩
  | .hbm, ⟨3, _⟩ => ⟨S128x258, .f32⟩
  | .hbm, ⟨4, _⟩ => ⟨S128, .f32⟩
  | .hbm, ⟨5, _⟩ => ⟨S128x64x1x128, .f32⟩
  | .hbm, ⟨6, _⟩ => ⟨S128x64x64x128, .f32⟩
  | .hbm, ⟨7, _⟩ => ⟨S128x1x64x128, .f32⟩
  | .hbm, ⟨8, _⟩ => ⟨S128x64x64x128, .f32⟩
  | .hbm, ⟨9, _⟩ => ⟨S128x64x64x1, .f32⟩
  | .hbm, ⟨10, _⟩ => ⟨S128x64x64x130, .f32⟩
  | .hbm, ⟨11, _⟩ => ⟨S128x64x64x130, .f32⟩
  | .hbm, ⟨12, _⟩ => ⟨S128x64x64x130, .f32⟩
  | .hbm, ⟨13, _⟩ => ⟨S128x64x64x258, .f32⟩
  | .hbm, ⟨14, _⟩ => ⟨S128x64x64x128, .f32⟩
  | .hbm, ⟨15, _⟩ => ⟨S1x1x1x128, .f32⟩
  | .hbm, ⟨16, _⟩ => ⟨S128x64x64x128, .f32⟩
  | .hbm, ⟨17, _⟩ => ⟨S128x64x64x128, .f32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S1x64x64x1, .f32⟩
  | .hbm, ⟨29, _⟩ => ⟨S128x64x64x128, .f32⟩
  | .hbm, ⟨30, _⟩ => ⟨S128x64x64x128, .f32⟩
  | .hbm, ⟨31, _⟩ => ⟨S_, .f32⟩
  | .hbm, ⟨32, _⟩ => ⟨S128x64x128, .f32⟩
  | .hbm, ⟨33, _⟩ => ⟨S_, .f32⟩
  | .hbm, ⟨34, _⟩ => ⟨S128x64x128, .f32⟩
  | .hbm, ⟨35, _⟩ => ⟨S128x64x128, .f32⟩
  | _, _ => ⟨S128x64x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S128x64x128_S128x64x1x128_0_1_3 : S128x64x128.BroadcastsInDim S128x64x1x128 (![0, 1, 3] : Fin 3 → Fin S128x64x1x128.rank)
  bcast_S128x64x1x128_S128x64x64x128_0_1_2_3 : S128x64x1x128.BroadcastsInDim S128x64x64x128 (![0, 1, 2, 3] : Fin 4 → Fin S128x64x64x128.rank)
  bcast_S128x64x128_S128x1x64x128_0_2_3 : S128x64x128.BroadcastsInDim S128x1x64x128 (![0, 2, 3] : Fin 3 → Fin S128x1x64x128.rank)
  bcast_S128x1x64x128_S128x64x64x128_0_1_2_3 : S128x1x64x128.BroadcastsInDim S128x64x64x128 (![0, 1, 2, 3] : Fin 4 → Fin S128x64x64x128.rank)
  bcast_S128x64x64_S128x64x64x1_0_1_2 : S128x64x64.BroadcastsInDim S128x64x64x1 (![0, 1, 2] : Fin 3 → Fin S128x64x64x1.rank)
  concatenates_S128x64x64x128_S128x64x64x2_S128x64x64x130_d3 : Shape.Concatenates [S128x64x64x128, S128x64x64x2] S128x64x64x130 3
  bcast_S128x64x64x1_S128x64x64x130_0_1_2_3 : S128x64x64x1.BroadcastsInDim S128x64x64x130 (![0, 1, 2, 3] : Fin 4 → Fin S128x64x64x130.rank)
  concatenates_S128x64x64x128_S128x64x64x130_S128x64x64x258_d3 : Shape.Concatenates [S128x64x64x128, S128x64x64x130] S128x64x64x258 3
  bcast_S128_S1x1x1x128_3 : S128.BroadcastsInDim S1x1x1x128 (![3] : Fin 1 → Fin S1x1x1x128.rank)
  bcast_S1x1x1x128_S128x64x64x128_0_1_2_3 : S1x1x1x128.BroadcastsInDim S128x64x64x128 (![0, 1, 2, 3] : Fin 4 → Fin S128x64x64x128.rank)
  bcast_S_S64x64 : S_.BroadcastsInDim S64x64 (![] : Fin 0 → Fin S64x64.rank)
  bcast_S64x64_S1x64x64x1_1_2 : S64x64.BroadcastsInDim S1x64x64x1 (![1, 2] : Fin 2 → Fin S1x64x64x1.rank)
  bcast_S1x64x64x1_S128x64x64x128_0_1_2_3 : S1x64x64x1.BroadcastsInDim S128x64x64x128 (![0, 1, 2, 3] : Fin 4 → Fin S128x64x64x128.rank)
  reducesTo_S128x64x64x128_S128x64x128_d2 : S128x64x64x128.ReducesTo [2] S128x64x128
  h_S_ : 0 < S_.numel
  bcast_S_S128x64x128 : S_.BroadcastsInDim S128x64x128 (![] : Fin 0 → Fin S128x64x128.rank)
  dot_S128x64x64x258_S128x258_S128x64x64x128_3_1_012_0_n_n_wf : DotDims.WF S128x64x64x258 S128x258 S128x64x64x128 [3] [1] [0, 1, 2] [0] [] []

variable [Facts₀]

def dot_S128x64x64x258_S128x258_S128x64x64x128_3_1_012_0_n_n : DotDims S128x64x64x258 S128x258 S128x64x64x128 where
  lhsContracting := [3]
  rhsContracting := [1]
  lhsNonContracting := [0, 1, 2]
  rhsNonContracting := [0]
  lhsBatch := []
  rhsBatch := []
  wf := dot_S128x64x64x258_S128x258_S128x64x64x128_3_1_012_0_n_n_wf

class Facts : Prop extends Facts₀ where

variable [Facts]
-- ==== Proof.AggLaw.lean ====
/-
  The mathematics of the certificate, with no program in sight.

  One output entry (batch b, receiver i, channel o) is a function of: the batch's feature rows `f j k`, the receiver's
  adjacency row `a j`, its two-channel difference vectors `d j c`, row o of the weights `w` (258 columns: 128 for the
  receiver's features, 128 for the sender's, 2 for the difference vector) and the bias `β`.

  The edge-by-edge form (`refEntry`) applies the linear layer to every edge (i, j) and sums the results over the
  senders j ≠ i.  The factored form (`kernelEntry`) pulls the layer out of the sum: the sender-independent part is
  counted 63 times, the sender-feature part is a matrix product with the off-diagonal adjacency, and the difference
  part is two weighted row sums.  Over the reals the two agree by distributivity and because a row of the
  off-diagonal mask sums to 63; over the extended reals this needs every input finite.
-/
import Idealize.ShloMosaic.PureOps.Ideal

noncomputable section

namespace Cert.Agg

open Idealize.ShloMosaic

/-! ## The float constants the two programs spell -/

theorem ofBits_one : Ideal.ofBits .f32 0x3F800000#32 = 1 := by
  simp [Ideal.ofBits, Ideal.ieee, -EReal.coe_mul]; norm_num

theorem ofBits_63 : Ideal.ofBits .f32 0x427C0000#32 = ((63 : ℝ) : EReal) := by
  simp [Ideal.ofBits, Ideal.ieee, -EReal.coe_mul]; norm_num

theorem ofBits_zero : Ideal.ofBits .f32 0x00000000#32 = 0 := by
  simp [Ideal.ofBits, Ideal.ieee]

/-! ## The three column ranges of a weight row -/

/-- Column k of the receiver-feature weights. -/
def lo (k : Fin 128) : Fin 258 := ⟨k.val, by omega⟩
/-- Column k of the sender-feature weights. -/
def mid (k : Fin 128) : Fin 258 := ⟨128 + k.val, by omega⟩
/-- Column c of the difference-vector weights. -/
def hi (c : Fin 2) : Fin 258 := ⟨128 + (128 + c.val), by omega⟩

/-- A sum over the 258 columns is the sum over the three ranges. -/
theorem sum_split {M : Type*} [AddCommMonoid M] (g : Fin 258 → M) :
    ∑ k : Fin 258, g k = ∑ k : Fin 128, g (lo k) + (∑ k : Fin 128, g (mid k) + ∑ c : Fin 2, g (hi c)) := by
  have e : ∑ k : Fin 258, g k = ∑ k : Fin (128 + (128 + 2)), g k := rfl
  rw [e, Fin.sum_univ_add, Fin.sum_univ_add]
  rfl

/-! ## The off-diagonal mask -/

/-- 0 on the diagonal, 1 off it. -/
def offd (i j : Fin 64) : EReal := if i = j then 0 else 1
/-- 1 on the diagonal, 0 off it. -/
def eqd (i j : Fin 64) : EReal := if i = j then 1 else 0

theorem offd_coe (i j : Fin 64) : offd i j = ((if i = j then (0 : ℝ) else 1 : ℝ) : EReal) := by
  unfold offd; split_ifs <;> simp

theorem one_sub_eqd (i j : Fin 64) : 1 - eqd i j = offd i j := by
  unfold eqd offd
  split_ifs
  · rw [← EReal.coe_one, ← EReal.coe_sub]; simp
  · simp

/-! ## The two forms of an entry -/

/-- The factored form. -/
def kernelEntry (f : Fin 64 → Fin 128 → EReal) (a : Fin 64 → EReal) (d : Fin 64 → Fin 2 → EReal)
    (w : Fin 258 → EReal) (β : EReal) (i : Fin 64) : EReal :=
  max ((((63 : ℝ) : EReal) * (∑ k : Fin 128, f i k * w (lo k) + β)
        + ∑ j : Fin 64, (a j * offd i j) * ∑ k : Fin 128, f j k * w (mid k))
      + ((∑ j : Fin 64, (a j * offd i j) * d j 0) * w (hi 0)
        + (∑ j : Fin 64, (a j * offd i j) * d j 1) * w (hi 1))) 0

/-- The edge-by-edge form. -/
def refEntry (f : Fin 64 → Fin 128 → EReal) (a : Fin 64 → EReal) (d : Fin 64 → Fin 2 → EReal)
    (w : Fin 258 → EReal) (β : EReal) (i : Fin 64) : EReal :=
  max (0 + ∑ j : Fin 64,
        ((∑ k : Fin 128, f i k * w (lo k)
          + (∑ k : Fin 128, (a j * f j k) * w (mid k) + ∑ c : Fin 2, (a j * d j c) * w (hi c))) + β)
        * (1 - eqd i j)) 0

/-! ## The law, over the reals -/

/-- A finite sum of reals, read in the extended reals. -/
theorem coe_sum {ι : Type*} (s : Finset ι) (g : ι → ℝ) :
    ((∑ x ∈ s, g x : ℝ) : EReal) = ∑ x ∈ s, (g x : EReal) := by
  classical
  refine Finset.induction_on s (by simp) ?_
  intro x s hx ih
  rw [Finset.sum_insert hx, Finset.sum_insert hx, EReal.coe_add, ih]

/-- A row of the off-diagonal mask has 63 ones. -/
theorem mask_count (i : Fin 64) : ∑ j : Fin 64, (if i = j then (0 : ℝ) else 1) = 63 := by
  have h : ∀ j : Fin 64, (if i = j then (0 : ℝ) else 1) = 1 - (if i = j then 1 else 0) := by
    intro j; split_ifs <;> norm_num
  simp only [h, Finset.sum_sub_distrib, Finset.sum_const, Finset.card_univ, Fintype.card_fin,
    Finset.sum_ite_eq, Finset.mem_univ, if_true]
  norm_num

/-- The law with the inner sums named: pulling the layer out of the sum over senders. -/
theorem law_abs (P β w0 w1 : ℝ) (a g d0 d1 δ : Fin 64 → ℝ) (hcount : ∑ j : Fin 64, δ j = 63) :
    (63 * (P + β) + ∑ j : Fin 64, (a j * δ j) * g j)
      + ((∑ j : Fin 64, (a j * δ j) * d0 j) * w0 + (∑ j : Fin 64, (a j * δ j) * d1 j) * w1)
    = ∑ j : Fin 64, ((P + (a j * g j + (a j * d0 j * w0 + a j * d1 j * w1))) + β) * δ j := by
  have h : ∀ j : Fin 64, ((P + (a j * g j + (a j * d0 j * w0 + a j * d1 j * w1))) + β) * δ j
      = (P + β) * δ j + ((a j * δ j) * g j + ((a j * δ j) * d0 j * w0 + (a j * δ j) * d1 j * w1)) :=
    fun j => by ring
  rw [Finset.sum_congr rfl (fun j _ => h j), Finset.sum_add_distrib, Finset.sum_add_distrib,
    Finset.sum_add_distrib, ← Finset.mul_sum, ← Finset.sum_mul, ← Finset.sum_mul, hcount]
  ring

/-- The law for real inputs, each side read in the extended reals. -/
theorem entries_eq_coe (f : Fin 64 → Fin 128 → ℝ) (a : Fin 64 → ℝ) (d : Fin 64 → Fin 2 → ℝ)
    (w : Fin 258 → ℝ) (β : ℝ) (i : Fin 64) :
    kernelEntry (fun j k => (f j k : EReal)) (fun j => (a j : EReal)) (fun j c => (d j c : EReal))
        (fun k => (w k : EReal)) (β : EReal) i
      = refEntry (fun j k => (f j k : EReal)) (fun j => (a j : EReal)) (fun j c => (d j c : EReal))
        (fun k => (w k : EReal)) (β : EReal) i := by
  unfold kernelEntry refEntry
  simp only [one_sub_eqd, offd_coe, zero_add, ← EReal.coe_mul, ← EReal.coe_add, ← coe_sum]
  refine congrArg (fun x : ℝ => max (x : EReal) 0) ?_
  have hin : ∀ j : Fin 64, (∑ k : Fin 128, a j * f j k * w (mid k)) = a j * ∑ k : Fin 128, f j k * w (mid k) := by
    intro j; rw [Finset.mul_sum]; exact Finset.sum_congr rfl fun k _ => by ring
  simp only [hin, Fin.sum_univ_two]
  exact law_abs _ β (w (hi 0)) (w (hi 1)) a _ (fun j => d j 0) (fun j => d j 1) _ (mask_count i)

/-- The law on the extended reals, for finite inputs. -/
theorem entries_eq (f : Fin 64 → Fin 128 → EReal) (a : Fin 64 → EReal) (d : Fin 64 → Fin 2 → EReal)
    (w : Fin 258 → EReal) (β : EReal) (i : Fin 64)
    (hf : ∀ j k, f j k ≠ ⊤ ∧ f j k ≠ ⊥) (ha : ∀ j, a j ≠ ⊤ ∧ a j ≠ ⊥) (hd : ∀ j c, d j c ≠ ⊤ ∧ d j c ≠ ⊥)
    (hw : ∀ k, w k ≠ ⊤ ∧ w k ≠ ⊥) (hβ : β ≠ ⊤ ∧ β ≠ ⊥) :
    kernelEntry f a d w β i = refEntry f a d w β i := by
  have ef : f = fun j k => (((f j k).toReal : ℝ) : EReal) :=
    funext fun j => funext fun k => (EReal.coe_toReal (hf j k).1 (hf j k).2).symm
  have ea : a = fun j => (((a j).toReal : ℝ) : EReal) := funext fun j => (EReal.coe_toReal (ha j).1 (ha j).2).symm
  have ed : d = fun j c => (((d j c).toReal : ℝ) : EReal) :=
    funext fun j => funext fun c => (EReal.coe_toReal (hd j c).1 (hd j c).2).symm
  have ew : w = fun k => (((w k).toReal : ℝ) : EReal) := funext fun k => (EReal.coe_toReal (hw k).1 (hw k).2).symm
  have eβ : β = ((β.toReal : ℝ) : EReal) := (EReal.coe_toReal hβ.1 hβ.2).symm
  rw [ef, ea, ed, ew, eβ]
  exact entries_eq_coe _ _ _ _ _ i

end Cert.Agg

end
-- ==== Proof.Mask.lean ====
/-
  The off-diagonal mask as each program spells it.

  The host program builds `1 - [i = j]` from two iotas, an integer compare and a conversion of the one-bit result read
  unsigned; the kernel builds `[i ≠ j]` from two iotas, a compare, a zero-extension to 32 bits and a conversion read
  signed.  Both iotas are the coordinate as a 32-bit word, and two coordinates below 64 are equal exactly when their
  words are, so the first is `eqd i j` and the second `offd i j`.
-/
import Idealize.ShloMosaic.PureOps.Ideal
import proofs.«162205_j33277406609831_2_alg».proof.Proof.AggLaw

noncomputable section

namespace Cert.Agg

open Idealize.ShloMosaic

/-- Two coordinates below 64 are equal exactly when their 32-bit words are. -/
theorem ofNat32_inj (i j : Fin 64) : BitVec.ofNat 32 i.val = BitVec.ofNat 32 j.val ↔ i = j := by
  constructor
  · intro h
    have h2 := congrArg BitVec.toNat h
    simp only [BitVec.toNat_ofNat] at h2
    have hi := i.isLt
    have hj := j.isLt
    exact Fin.ext (by omega)
  · intro h; rw [h]

/-- The host's `convert (compare EQ (iota₀ + 0) iota₁)` at (i, j). -/
theorem refMask (i j : Fin 64) :
    FloatOps.uitofp (F := Ideal) .f32
        (IntOp.cmpi .eq (IntOp.addi (BitVec.ofNat 32 i.val) 0#32) (BitVec.ofNat 32 j.val)) = eqd i j := by
  have e0 : IntOp.addi (BitVec.ofNat 32 i.val) 0#32 = BitVec.ofNat 32 i.val := by
    unfold IntOp.addi; exact BitVec.add_zero _
  rw [e0]
  show (((BitVec.ofBool (BitVec.ofNat 32 i.val == BitVec.ofNat 32 j.val)).toNat : ℝ) : EReal) = eqd i j
  unfold eqd
  by_cases h : i = j
  · have hb : (BitVec.ofNat 32 i.val == BitVec.ofNat 32 j.val) = true := by
      rw [beq_iff_eq]; exact (ofNat32_inj i j).mpr h
    rw [hb, if_pos h]; simp
  · have hb : (BitVec.ofNat 32 i.val == BitVec.ofNat 32 j.val) = false := by
      rw [beq_eq_false_iff_ne]; exact fun e => h ((ofNat32_inj i j).mp e)
    rw [hb, if_neg h]; simp

/-- The kernel's `sitofp (extui (cmpi ne iota₀ iota₁))` at (i, j). -/
theorem kernelMask (i j : Fin 64) :
    FloatOps.sitofp (F := Ideal) .f32
        ((IntOp.cmpi .ne (BitVec.ofNat 32 i.val) (BitVec.ofNat 32 j.val)).setWidth 32) = offd i j := by
  show ((((BitVec.ofBool (BitVec.ofNat 32 i.val != BitVec.ofNat 32 j.val)).setWidth 32).toInt : ℝ) : EReal) = offd i j
  unfold offd
  by_cases h : i = j
  · have hb : (BitVec.ofNat 32 i.val != BitVec.ofNat 32 j.val) = false := by
      rw [bne_eq_false_iff_eq]; exact (ofNat32_inj i j).mpr h
    have e : ((BitVec.ofBool false).setWidth 32).toInt = 0 := by decide
    rw [hb, if_pos h, e]; simp
  · have hb : (BitVec.ofNat 32 i.val != BitVec.ofNat 32 j.val) = true := by
      rw [bne_iff_ne]; exact fun e => h ((ofNat32_inj i j).mp e)
    have e : ((BitVec.ofBool true).setWidth 32).toInt = 1 := by decide
    rw [hb, if_neg h, e]; simp

end Cert.Agg

end
-- ==== Proof.KernelEntry.lean ====
/-
  What one grid point of the kernel leaves in its output block, at one index, as the factored form.

  The point's blocks are: the batch's feature rows P0 [1, 64, 128], the weights P1 [128, 258], the bias P2 [128], the
  batch's adjacency P3 [1, 64, 64] and its difference vectors P4 [1, 64, 64, 2].  The body computes
    63 · (features · W₁ᵀ + bias)  +  (A ∘ offdiag) · (features · W₂ᵀ)  +  Σⱼ (A ∘ offdiag)·diff₀ ⊗ w₂₅₆ + Σⱼ (A ∘ offdiag)·diff₁ ⊗ w₂₅₇
  and takes the maximum with 0.  Each matrix product into a zero accumulator is a plain sum over the contracted
  axis, a change of float format is the identity, and the lane reduction is a plain sum, so entry (0, i, o) of the
  block is `kernelEntry` of the blocks' rows.
-/
import proofs.«162205_j33277406609831_2_alg».proof.Proof.Gen.KernelIdeal.Value
import proofs.«162205_j33277406609831_2_alg».proof.Proof.AggLaw
import proofs.«162205_j33277406609831_2_alg».proof.Proof.Mask
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AggKernel

open Cert.KernelIdeal Cert.KernelIdeal.Gen Idealize.ShloMosaic Idealize.ShloMosaic.ValueIdx Idealize.ShloMosaic.TcCoe
  Cert.Agg

/-! ## The two matrix products into a zero accumulator, as sums over the contracted axis -/

theorem featDot_lhs0 (j : S64x128.Idx) (q : dot_S64x128_S128x128_S64x128_1_0_0_1_n_n.contr.Idx) :
    (dot_S64x128_S128x128_S64x128_1_0_0_1_n_n.lhsIdx j q 0).val = (j 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl

theorem featDot_rhs1 (j : S64x128.Idx) (q : dot_S64x128_S128x128_S64x128_1_0_0_1_n_n.contr.Idx) :
    (dot_S64x128_S128x128_S64x128_1_0_0_1_n_n.rhsIdx j q 1).val = (j 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- A [64, 128] by [128, 128] product: entry (i, o) is the sum over k of l (i, k) · r (k, o). -/
theorem featDot_apply (l : FVec Ideal S64x128 .bf16) (r : FVec Ideal S128x128 .bf16) (i : Fin 64) (o : Fin 128) :
    FloatOps.matmul dot_S64x128_S128x128_S64x128_1_0_0_1_n_n none l r (constant S64x128 .f32 0x00000000#32) (ix2 i o)
      = ∑ k : Fin 128, l (ix2 i k) * r (ix2 k o) := by
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 i o) ((contrEquiv1 dot_S64x128_S128x128_S64x128_1_0_0_1_n_n 128 rfl rfl).symm k) = ix2 i k :=
    funext fun a => Fin.ext (by
      match a with
      | ⟨0, _⟩ => exact featDot_lhs0 _ _
      | ⟨1, _⟩ => exact (dot_S64x128_S128x128_S64x128_1_0_0_1_n_n.lhsIdx_val_of_single rfl _ _).trans hk)
  have er : dot_S64x128_S128x128_S64x128_1_0_0_1_n_n.rhsIdx (ix2 i o) ((contrEquiv1 dot_S64x128_S128x128_S64x128_1_0_0_1_n_n 128 rfl rfl).symm k) = ix2 k o :=
    funext fun a => Fin.ext (by
      match a with
      | ⟨0, _⟩ => exact (dot_S64x128_S128x128_S64x128_1_0_0_1_n_n.rhsIdx_val_of_single rfl _ _).trans hk
      | ⟨1, _⟩ => exact featDot_rhs1 _ _)
  rw [el, er]

theorem adjDot_lhs0 (j : S64x128.Idx) (q : dot_S64x64_S64x128_S64x128_1_0_0_1_n_n.contr.Idx) :
    (dot_S64x64_S64x128_S64x128_1_0_0_1_n_n.lhsIdx j q 0).val = (j 0).val := by
  unfold DotDims.lhsIdx
  rw [dif_neg (show ¬(0 : Fin S64x64.rank) ∈ dot_S64x64_S64x128_S64x128_1_0_0_1_n_n.lhsBatch by decide),
    dif_pos (show (0 : Fin S64x64.rank) ∈ dot_S64x64_S64x128_S64x128_1_0_0_1_n_n.lhsNonContracting by decide)]
  rfl

theorem adjDot_rhs1 (j : S64x128.Idx) (q : dot_S64x64_S64x128_S64x128_1_0_0_1_n_n.contr.Idx) :
    (dot_S64x64_S64x128_S64x128_1_0_0_1_n_n.rhsIdx j q 1).val = (j 1).val := by
  unfold DotDims.rhsIdx
  rw [dif_neg (show ¬(1 : Fin S64x128.rank) ∈ dot_S64x64_S64x128_S64x128_1_0_0_1_n_n.rhsBatch by decide),
    dif_pos (show (1 : Fin S64x128.rank) ∈ dot_S64x64_S64x128_S64x128_1_0_0_1_n_n.rhsNonContracting by decide)]
  rfl

/-- A [64, 64] by [64, 128] product: entry (i, o) is the sum over j of l (i, j) · r (j, o). -/
theorem adjDot_apply (l : FVec Ideal S64x64 .bf16) (r : FVec Ideal S64x128 .bf16) (i : Fin 64) (o : Fin 128) :
    FloatOps.matmul dot_S64x64_S64x128_S64x128_1_0_0_1_n_n none l r (constant S64x128 .f32 0x00000000#32) (ix2 i o)
      = ∑ j : Fin 64, l (ix2 i j) * r (ix2 j o) := by
  rw [Ideal.matmul_constant_zero_apply, ← Equiv.sum_comp (contrEquiv1 dot_S64x64_S64x128_S64x128_1_0_0_1_n_n 64 rfl rfl).symm]
  refine Finset.sum_congr rfl fun k _ => ?_
  have hk := contrEquiv1_symm_val dot_S64x64_S64x128_S64x128_1_0_0_1_n_n 64 rfl rfl k
  have el : dot_S64x64_S64x128_S64x128_1_0_0_1_n_n.lhsIdx (ix2 i o) ((contrEquiv1 dot_S64x64_S64x128_S64x128_1_0_0_1_n_n 64 rfl rfl).symm k) = ix2 i k :=
    funext fun a => Fin.ext (by
      match a with
      | ⟨0, _⟩ => exact adjDot_lhs0 _ _
      | ⟨1, _⟩ => exact (dot_S64x64_S64x128_S64x128_1_0_0_1_n_n.lhsIdx_val_of_single rfl _ _).trans hk)
  have er : dot_S64x64_S64x128_S64x128_1_0_0_1_n_n.rhsIdx (ix2 i o) ((contrEquiv1 dot_S64x64_S64x128_S64x128_1_0_0_1_n_n 64 rfl rfl).symm k) = ix2 k o :=
    funext fun a => Fin.ext (by
      match a with
      | ⟨0, _⟩ => exact (dot_S64x64_S64x128_S64x128_1_0_0_1_n_n.rhsIdx_val_of_single rfl _ _).trans hk
      | ⟨1, _⟩ => exact adjDot_rhs1 _ _)
  rw [el, er]

/-! ## The re-laid operands, read at an index -/

variable (P0 : Vec Ideal S1x64x128 .f32) (P1 : Vec Ideal S128x258 .f32) (P2 : Vec Ideal S128 .f32)
  (P3 : Vec Ideal S1x64x64 .f32) (P4 : Vec Ideal S1x64x64x2 .f32)

/-- The feature block with its unit axis dropped (and its format changed). -/
theorem feat_apply (j : Fin 64) (k : Fin 128) : k0_pay3 (F := Ideal) P0 (ix2 j k) = P0 (ix3 (0 : Fin 1) j k) := by
  simp only [k0_pay3, truncf_apply]
  exact shapeCast_1ab_ab_apply P0 _ j k

/-- The receiver-feature weights, transposed: (k, o) reads W (o, k). -/
theorem wRecvT_apply (hs : S128x258.Slices ![0, 0] S128x128) (hb : FTy.bf16.bits < FTy.f32.bits)
    (ht : S128x128.Transposes [1, 0] S128x128) (k o : Fin 128) :
    transpose S128x128 [1, 0] (truncf .bf16 (extractStridedSlice S128x128 ![0, 0] P1 hs) hb : FVec Ideal S128x128 .bf16) ht
      (ix2 k o) = P1 (ix2 o (lo k)) := by
  rw [transpose_ix2_apply, truncf_apply]
  exact slice2_axis1_apply 0 P1 hs o k (lo k) (Nat.zero_add _).symm

/-- The sender-feature weights, transposed: (k, o) reads W (o, 128 + k). -/
theorem wSendT_apply (hs : S128x258.Slices ![0, 128] S128x128) (hb : FTy.bf16.bits < FTy.f32.bits)
    (ht : S128x128.Transposes [1, 0] S128x128) (k o : Fin 128) :
    transpose S128x128 [1, 0] (truncf .bf16 (extractStridedSlice S128x128 ![0, 128] P1 hs) hb : FVec Ideal S128x128 .bf16) ht
      (ix2 k o) = P1 (ix2 o (mid k)) := by
  rw [transpose_ix2_apply, truncf_apply]
  exact slice2_axis1_apply 128 P1 hs o k (mid k) rfl

/-- The masked adjacency: entry (i, j) of the block's matrix times the off-diagonal mask. -/
theorem adjOff_apply (i j : Fin 64) :
    k0_pay5 (F := Ideal) P3 (ix2 i j) = P3 (ix3 (0 : Fin 1) i j) * offd i j := by
  simp only [k0_pay5, mulf_apply, sitofp_apply, extui_apply]
  rw [shapeCast_1ab_ab_apply]
  show P3 (ix3 (0 : Fin 1) i j) * FloatOps.sitofp (F := Ideal) .f32
      ((IntOp.cmpi .ne (iota .tc S64x64 32 [0] iota_S64x64_d0_w32 (ix2 i j))
        (iota .tc S64x64 32 [1] iota_S64x64_d1_w32 (ix2 i j))).setWidth 32) = _
  rw [iota_single_apply, iota_single_apply]
  show P3 (ix3 (0 : Fin 1) i j) * FloatOps.sitofp (F := Ideal) .f32
      ((IntOp.cmpi .ne (BitVec.ofNat 32 i.val) (BitVec.ofNat 32 j.val)).setWidth 32) = _
  rw [kernelMask]

/-! ## The three terms -/

/-- The sender-independent term: 63 times (the receiver's features · W₁ row o, plus the bias). -/
theorem recvTerm_apply (i : Fin 64) (o : Fin 128) :
    k0_pay4 (F := Ideal) P0 P1 P2 (ix2 i o)
      = ((63 : ℝ) : EReal) * (∑ k : Fin 128, P0 (ix3 (0 : Fin 1) i k) * P1 (ix2 o (lo k)) + P2 (ix1 o)) := by
  simp only [k0_pay4, matmul, mulf_apply, addf_apply, broadcast_apply]
  rw [featDot_apply, broadcastTo_1b_ab_apply, shapeCast_a_1a_apply]
  show Ideal.ofBits .f32 0x427C0000#32 * _ = _
  rw [ofBits_63]
  refine congrArg (fun s => ((63 : ℝ) : EReal) * (s + P2 (ix1 o))) (Finset.sum_congr rfl fun k _ => ?_)
  rw [feat_apply, wRecvT_apply]

/-- The sender-feature term: the masked adjacency row times (each sender's features · W₂ row o). -/
theorem sendTerm_apply (i : Fin 64) (o : Fin 128) :
    k0_pay6 (F := Ideal) P0 P3 P1 (ix2 i o)
      = ∑ j : Fin 64, (P3 (ix3 (0 : Fin 1) i j) * offd i j)
          * ∑ k : Fin 128, P0 (ix3 (0 : Fin 1) j k) * P1 (ix2 o (mid k)) := by
  simp only [k0_pay6, matmul]
  rw [adjDot_apply]
  refine Finset.sum_congr rfl fun j _ => ?_
  rw [truncf_apply, truncf_apply, adjOff_apply, featDot_apply]
  refine congrArg _ (Finset.sum_congr rfl fun k _ => ?_)
  rw [feat_apply, wSendT_apply]

/-- The masked adjacency times the difference vectors, summed over the senders. -/
def diffSums : FVec Ideal S64x2 .f32 :=
  multiReduction .add [1] S64x2
    (mulf (broadcastTo S64x64x2 (shapeCast S64x64x1 (k0_pay5 P3) shapeCasts_S64x64_S64x64x1) broadcasts_S64x64x1_S64x64x2)
      (shapeCast S64x64x2 P4 shapeCasts_S1x64x64x2_S64x64x2))
    0x00000000#32 reduces_S64x64x2_S64x2 (.inl rfl) rfl

theorem diffSums_apply (i : Fin 64) (c : Fin 2) :
    diffSums P3 P4 (ix2 i c) = ∑ j : Fin 64, (P3 (ix3 (0 : Fin 1) i j) * offd i j) * P4 (ix4 (0 : Fin 1) i j c) := by
  unfold diffSums
  refine (Ideal.multiReduction_add_single _ 0x00000000#32 reduces_S64x64x2_S64x2 (.inl rfl) rfl (ix2 i c)).trans ?_
  refine Finset.sum_congr rfl fun (j : Fin 64) _ => ?_
  have e : (reduces_S64x64x2_S64x2 : S64x64x2.Reduces [1] S64x2).lift (ix2 i c) j = ix3 i j c :=
    funext fun a => Fin.ext (by match a with | ⟨0, _⟩ => rfl | ⟨1, _⟩ => rfl | ⟨2, _⟩ => rfl)
  rw [e]
  show (broadcastTo S64x64x2 (shapeCast S64x64x1 (k0_pay5 P3) shapeCasts_S64x64_S64x64x1) broadcasts_S64x64x1_S64x64x2
      (ix3 i j c)) * (shapeCast S64x64x2 P4 shapeCasts_S1x64x64x2_S64x64x2 (ix3 i j c)) = _
  rw [shapeCast_1abc_abc_apply]
  refine congrArg (· * P4 (ix4 (0 : Fin 1) i j c)) ?_
  refine (broadcastTo_apply _ broadcasts_S64x64x1_S64x64x2 (ix3 i j c) (ix3 i j (0 : Fin 1)) (fun a => by
    match a with
    | ⟨0, _⟩ => show i.val = if (64 : Nat) = 1 then 0 else i.val; rw [if_neg (by decide)]
    | ⟨1, _⟩ => show j.val = if (64 : Nat) = 1 then 0 else j.val; rw [if_neg (by decide)]
    | ⟨2, _⟩ => show 0 = if (1 : Nat) = 1 then 0 else c.val; rw [if_pos rfl])).trans ?_
  refine (shapeCast_apply _ shapeCasts_S64x64_S64x64x1 (ix3 i j (0 : Fin 1)) (ix2 i j) (by
    rw [Shape.rowMajor_val_two, Shape.rowMajor_val_three]
    show i.val * 64 + j.val = (i.val * 64 + j.val) * 1 + 0
    omega)).trans ?_
  exact adjOff_apply P3 i j

/-! ## The block's entry -/

theorem at0 (i : Fin 64) (o : Fin 128) : Value.ix5_0 (ix3 (0 : Fin 1) i o) = ix2 i o :=
  funext fun a => Fin.ext (by match a with | ⟨0, _⟩ => rfl | ⟨1, _⟩ => rfl)
theorem at1 (i : Fin 64) (o : Fin 128) : Value.ix5_1 (ix3 (0 : Fin 1) i o) = ix2 i o :=
  funext fun a => Fin.ext (by match a with | ⟨0, _⟩ => rfl | ⟨1, _⟩ => rfl)
theorem at2 (i : Fin 64) (o : Fin 128) : Value.ix5_2 (ix3 (0 : Fin 1) i o) = ix2 i (0 : Fin 2) :=
  funext fun a => Fin.ext (by match a with | ⟨0, _⟩ => rfl | ⟨1, _⟩ => rfl)
theorem at3 (i : Fin 64) (o : Fin 128) : Value.ix5_3 (ix3 (0 : Fin 1) i o) = ix2 o (hi 0) :=
  funext fun a => Fin.ext (by match a with | ⟨0, _⟩ => rfl | ⟨1, _⟩ => rfl)
theorem at4 (i : Fin 64) (o : Fin 128) : Value.ix5_4 (ix3 (0 : Fin 1) i o) = ix2 i (1 : Fin 2) :=
  funext fun a => Fin.ext (by match a with | ⟨0, _⟩ => rfl | ⟨1, _⟩ => rfl)
theorem at5 (i : Fin 64) (o : Fin 128) : Value.ix5_5 (ix3 (0 : Fin 1) i o) = ix2 o (hi 1) :=
  funext fun a => Fin.ext (by match a with | ⟨0, _⟩ => rfl | ⟨1, _⟩ => rfl)

/-- Entry (0, i, o) of what the body leaves in the output block is the factored form of the blocks' rows. -/
theorem kernel_entry (i : Fin 64) (o : Fin 128) :
    Value.E5 (F := Ideal) P0 P1 P2 P3 P4 (ix3 (0 : Fin 1) i o)
      = kernelEntry (fun j k => P0 (ix3 (0 : Fin 1) j k)) (fun j => P3 (ix3 (0 : Fin 1) i j))
          (fun j c => P4 (ix4 (0 : Fin 1) i j c)) (fun k => P1 (ix2 o k)) (P2 (ix1 o)) i := by
  show FloatOps.maximumf (FloatOps.addf
      (FloatOps.addf (k0_pay4 P0 P1 P2 (Value.ix5_0 (ix3 (0 : Fin 1) i o))) (k0_pay6 P0 P3 P1 (Value.ix5_1 (ix3 (0 : Fin 1) i o))))
      (FloatOps.addf (FloatOps.mulf (diffSums P3 P4 (Value.ix5_2 (ix3 (0 : Fin 1) i o))) (P1 (Value.ix5_3 (ix3 (0 : Fin 1) i o))))
        (FloatOps.mulf (diffSums P3 P4 (Value.ix5_4 (ix3 (0 : Fin 1) i o))) (P1 (Value.ix5_5 (ix3 (0 : Fin 1) i o))))))
      (Scalar.ofBits .f32 0x00000000#32) = _
  rw [at0, at1, at2, at3, at4, at5, recvTerm_apply, sendTerm_apply, diffSums_apply, diffSums_apply]
  show max _ (Ideal.ofBits .f32 0x00000000#32) = _
  rw [ofBits_zero]
  rfl

end Cert.KernelIdeal.AggKernel

end
-- ==== Proof.AggArray.lean ====
/-
  The result as ONE function of the five argument arrays: entry (b, i, o) is the edge-by-edge form of batch b's rows.
-/
import Idealize.ShloMosaic.Lib.ValueIdx
import proofs.«162205_j33277406609831_2_alg».proof.Proof.AggLaw

noncomputable section

namespace Cert.Agg

open Idealize.ShloMosaic Idealize.ShloMosaic.ValueIdx

variable (x0 : (⟨4, ![128, 64, 64, 2]⟩ : Shape).Idx → EReal) (x1 : (⟨3, ![128, 64, 128]⟩ : Shape).Idx → EReal)
  (x2 : (⟨3, ![128, 64, 64]⟩ : Shape).Idx → EReal) (x3 : (⟨2, ![128, 258]⟩ : Shape).Idx → EReal)
  (x4 : (⟨1, ![128]⟩ : Shape).Idx → EReal)

/-- Entry (b, i, o): difference vectors x0, features x1, adjacency x2, weights x3, bias x4. -/
def aggAt (b : Fin 128) (i : Fin 64) (o : Fin 128) : EReal :=
  refEntry (fun j k => x1 (ix3 b j k)) (fun j => x2 (ix3 b i j)) (fun j c => x0 (ix4 b i j c))
    (fun k => x3 (ix2 o k)) (x4 (ix1 o)) i

/-- The whole result array. -/
def aggArray : (⟨3, ![128, 64, 128]⟩ : Shape).Idx → EReal :=
  fun idx => aggAt x0 x1 x2 x3 x4 (idx 0) (idx 1) (idx 2)

theorem aggArray_ix3 (b : Fin 128) (i : Fin 64) (o : Fin 128) :
    aggArray x0 x1 x2 x3 x4 (ix3 b i o) = aggAt x0 x1 x2 x3 x4 b i o := rfl

end Cert.Agg

end
-- ==== Proof.KernelArray.lean ====
/-
  From the grid points' blocks to the kernel's whole result array.

  Grid point t stages batch t of the features, the adjacency and the difference vectors, and the whole weights and
  bias, and writes back batch t of the result.  So what point t writes back is block t of the specification's array
  (the factored form of the blocks' rows is the edge-by-edge form, every input being finite), the 128 blocks cover
  the array, and the array after the run is the specification's.
-/
import proofs.«162205_j33277406609831_2_alg».proof.Proof.Gen.KernelIdeal.Value
import proofs.«162205_j33277406609831_2_alg».proof.Proof.KernelEntry
import proofs.«162205_j33277406609831_2_alg».proof.Proof.AggArray

noncomputable section

namespace Cert.KernelIdeal.AggKernel

open Cert.KernelIdeal Cert.KernelIdeal.Gen Idealize.ShloMosaic Idealize.ShloMosaic.ValueIdx Idealize.ShloMosaic.TcCoe
  Idealize.SL.Sem Cert.Agg
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, as the index-by-index function of the input blocks. -/
theorem out_eq (x0 : Vec Ideal S1x64x64x2 .f32) (x1 : Vec Ideal S1x64x128 .f32) (x2 : Vec Ideal S1x64x64 .f32)
    (x3 : Vec Ideal S128x258 .f32) (x4 : Vec Ideal S128 .f32) (y : S1x64x128.Idx) :
    out0_5 (F := Ideal) x0 x1 x2 x3 x4 y = Value.E5 (F := Ideal) x1 x3 x4 x2 x0 y := by
  unfold out0_5
  simp only [View.ld_unit_zero (S := S1x64x64x2) hz4, View.ld_unit_zero (S := S1x64x128) hz3,
    View.ld_unit_zero (S := S1x64x64) hz3, View.ld_unit_zero (S := S128x258) hz2, View.ld_unit_zero (S := S128) hz1]
  exact Value.canon5_eq x1 x3 x4 x2 x0 y

/-- The printed index maps, decided over the grid: the three batched inputs and the output move with the point along
    axis 0, the weights and the bias stay. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The input blocks at point t are batch t of the arguments -/

theorem diff_blk (c : Dev nD) (t : Fin cfg0.N) (b : Fin 128) (hb : b.val = t.val) (u : Fin 1) (i j : Fin 64) (q : Fin 2) :
    (iblk m c 0 t : Vec Ideal S1x64x64x2 .f32) (ix4 u i j q)
      = (m ((c : Thread nD τ).loc main_arg0) : S128x64x64x2.Idx → EReal) (ix4 b i j q) := by
  obtain ⟨e0, e1, e2, e3, -⟩ := idx_facts t
  have hu := u.isLt
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * u.val = b.val; rw [e0, hb]; omega
  | ⟨1, _⟩ => show win0_0.index t (1 : Fin 4) * 64 + 1 * i.val = i.val; rw [e1]; omega
  | ⟨2, _⟩ => show win0_0.index t (2 : Fin 4) * 64 + 1 * j.val = j.val; rw [e2]; omega
  | ⟨3, _⟩ => show win0_0.index t (3 : Fin 4) * 2 + 1 * q.val = q.val; rw [e3]; omega

theorem feat_blk (c : Dev nD) (t : Fin cfg0.N) (b : Fin 128) (hb : b.val = t.val) (u : Fin 1) (j : Fin 64) (k : Fin 128) :
    (iblk m c 1 t : Vec Ideal S1x64x128 .f32) (ix3 u j k)
      = (m ((c : Thread nD τ).loc main_arg1) : S128x64x128.Idx → EReal) (ix3 b j k) := by
  obtain ⟨-, -, -, -, e0, e1, e2, -⟩ := idx_facts t
  have hu := u.isLt
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * u.val = b.val; rw [e0, hb]; omega
  | ⟨1, _⟩ => show win0_1.index t (1 : Fin 3) * 64 + 1 * j.val = j.val; rw [e1]; omega
  | ⟨2, _⟩ => show win0_1.index t (2 : Fin 3) * 128 + 1 * k.val = k.val; rw [e2]; omega

theorem adj_blk (c : Dev nD) (t : Fin cfg0.N) (b : Fin 128) (hb : b.val = t.val) (u : Fin 1) (i j : Fin 64) :
    (iblk m c 2 t : Vec Ideal S1x64x64 .f32) (ix3 u i j)
      = (m ((c : Thread nD τ).loc main_arg2) : S128x64x64.Idx → EReal) (ix3 b i j) := by
  obtain ⟨-, -, -, -, -, -, -, e0, e1, e2, -⟩ := idx_facts t
  have hu := u.isLt
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * u.val = b.val; rw [e0, hb]; omega
  | ⟨1, _⟩ => show win0_2.index t (1 : Fin 3) * 64 + 1 * i.val = i.val; rw [e1]; omega
  | ⟨2, _⟩ => show win0_2.index t (2 : Fin 3) * 64 + 1 * j.val = j.val; rw [e2]; omega

theorem w_blk (c : Dev nD) (t : Fin cfg0.N) (o : Fin 128) (k : Fin 258) :
    (iblk m c 3 t : Vec Ideal S128x258 .f32) (ix2 o k)
      = (m ((c : Thread nD τ).loc main_arg3) : S128x258.Idx → EReal) (ix2 o k) := by
  obtain ⟨-, -, -, -, -, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 2) * 128 + 1 * o.val = o.val; rw [e0]; omega
  | ⟨1, _⟩ => show win0_3.index t (1 : Fin 2) * 258 + 1 * k.val = k.val; rw [e1]; omega

theorem bias_blk (c : Dev nD) (t : Fin cfg0.N) (o : Fin 128) :
    (iblk m c 4 t : Vec Ideal S128 .f32) (ix1 o)
      = (m ((c : Thread nD τ).loc main_arg4) : S128.Idx → EReal) (ix1 o) := by
  obtain ⟨-, -, -, -, -, -, -, -, -, -, -, -, e0, -⟩ := idx_facts t
  unfold iblk
  rw [View.read_apply]
  show V m c main_arg4 _ = m (c.tc.loc main_arg4) _
  unfold V
  congr 1
  funext a
  apply Fin.ext
  match a with
  | ⟨0, _⟩ => show win0_4.index t (0 : Fin 1) * 128 + 1 * o.val = o.val; rw [e0]; omega

/-! ## What a point writes back, the cover, the array after the run -/

/-- Every entry of every argument array is a real number. -/
def FiniteArgs (c : Dev nD) : Prop :=
  (∀ i, (m ((c : Thread nD τ).loc main_arg0) : S128x64x64x2.Idx → EReal) i ≠ (⊤ : EReal) ∧ (m ((c : Thread nD τ).loc main_arg0) : S128x64x64x2.Idx → EReal) i ≠ (⊥ : EReal))
  ∧ (∀ i, (m ((c : Thread nD τ).loc main_arg1) : S128x64x128.Idx → EReal) i ≠ (⊤ : EReal) ∧ (m ((c : Thread nD τ).loc main_arg1) : S128x64x128.Idx → EReal) i ≠ (⊥ : EReal))
  ∧ (∀ i, (m ((c : Thread nD τ).loc main_arg2) : S128x64x64.Idx → EReal) i ≠ (⊤ : EReal) ∧ (m ((c : Thread nD τ).loc main_arg2) : S128x64x64.Idx → EReal) i ≠ (⊥ : EReal))
  ∧ (∀ i, (m ((c : Thread nD τ).loc main_arg3) : S128x258.Idx → EReal) i ≠ (⊤ : EReal) ∧ (m ((c : Thread nD τ).loc main_arg3) : S128x258.Idx → EReal) i ≠ (⊥ : EReal))
  ∧ (∀ i, (m ((c : Thread nD τ).loc main_arg4) : S128.Idx → EReal) i ≠ (⊤ : EReal) ∧ (m ((c : Thread nD τ).loc main_arg4) : S128.Idx → EReal) i ≠ (⊥ : EReal))

/-- The specification's array of the arguments at launch. -/
abbrev spec (c : Dev nD) : S128x64x128.Idx → EReal :=
  aggArray (m ((c : Thread nD τ).loc main_arg0)) (m ((c : Thread nD τ).loc main_arg1)) (m ((c : Thread nD τ).loc main_arg2)) (m ((c : Thread nD τ).loc main_arg3)) (m ((c : Thread nD τ).loc main_arg4))

/-- Point t writes back block t of the specification's array. -/
theorem flushed_eq (c : Dev nD) (hfin : FiniteArgs m c) (t : Fin cfg0.N) :
    (dats m 0 c).flushed 5 t = ((cfg0.win 5).blk t).view.read (Elt Ideal) (spec m c) := by
  obtain ⟨f0, f1, f2, f3, f4⟩ := hfin
  have hb : t.val < 128 := lt_of_lt_of_eq t.isLt N_0
  obtain ⟨-, -, -, -, -, -, -, -, -, -, -, -, -, e0, e1, e2⟩ := idx_facts t
  rw [Value.flushed5]
  funext y
  obtain ⟨u, i, o, rfl⟩ : ∃ (u : Fin 1) (i : Fin 64) (o : Fin 128), y = ix3 u i o := ⟨y 0, y 1, y 2, eq_ix3 y⟩
  obtain rfl : u = 0 := Subsingleton.elim _ _
  rw [View.read_apply]
  have hemb : ((cfg0.win 5).blk t).view.emb (ix3 (0 : Fin 1) i o) = ix3 (⟨t.val, hb⟩ : Fin 128) i o := by
    funext a
    apply Fin.ext
    match a with
    | ⟨0, _⟩ => show win0_5.index t (0 : Fin 3) * 1 + 1 * (0 : Fin 1).val = t.val; rw [e0]; simp
    | ⟨1, _⟩ => show win0_5.index t (1 : Fin 3) * 64 + 1 * i.val = i.val; rw [e1]; omega
    | ⟨2, _⟩ => show win0_5.index t (2 : Fin 3) * 128 + 1 * o.val = o.val; rw [e2]; omega
  rw [hemb]
  show out0_5 (iblk m c 0 t) (iblk m c 1 t) (iblk m c 2 t) (iblk m c 3 t) (iblk m c 4 t) (ix3 (0 : Fin 1) i o) = _
  refine (out_eq (iblk m c 0 t) (iblk m c 1 t) (iblk m c 2 t) (iblk m c 3 t) (iblk m c 4 t) (ix3 (0 : Fin 1) i o)).trans ?_
  refine (kernel_entry (iblk m c 1 t) (iblk m c 3 t) (iblk m c 4 t) (iblk m c 2 t) (iblk m c 0 t) i o).trans ?_
  have q1 : (fun (j : Fin 64) (k : Fin 128) => (iblk m c 1 t : Vec Ideal S1x64x128 .f32) (ix3 (0 : Fin 1) j k))
      = fun j k => (m ((c : Thread nD τ).loc main_arg1) : S128x64x128.Idx → EReal) (ix3 (⟨t.val, hb⟩ : Fin 128) j k) :=
    funext fun j => funext fun k => feat_blk m c t ⟨t.val, hb⟩ rfl 0 j k
  have q2 : (fun (j : Fin 64) => (iblk m c 2 t : Vec Ideal S1x64x64 .f32) (ix3 (0 : Fin 1) i j))
      = fun j => (m ((c : Thread nD τ).loc main_arg2) : S128x64x64.Idx → EReal) (ix3 (⟨t.val, hb⟩ : Fin 128) i j) :=
    funext fun j => adj_blk m c t ⟨t.val, hb⟩ rfl 0 i j
  have q0 : (fun (j : Fin 64) (q : Fin 2) => (iblk m c 0 t : Vec Ideal S1x64x64x2 .f32) (ix4 (0 : Fin 1) i j q))
      = fun j q => (m ((c : Thread nD τ).loc main_arg0) : S128x64x64x2.Idx → EReal) (ix4 (⟨t.val, hb⟩ : Fin 128) i j q) :=
    funext fun j => funext fun q => diff_blk m c t ⟨t.val, hb⟩ rfl 0 i j q
  have q3 : (fun (k : Fin 258) => (iblk m c 3 t : Vec Ideal S128x258 .f32) (ix2 o k))
      = fun k => (m ((c : Thread nD τ).loc main_arg3) : S128x258.Idx → EReal) (ix2 o k) :=
    funext fun k => w_blk m c t o k
  have q4 : (iblk m c 4 t : Vec Ideal S128 .f32) (ix1 o) = (m ((c : Thread nD τ).loc main_arg4) : S128.Idx → EReal) (ix1 o) :=
    bias_blk m c t o
  rw [q0, q1, q2, q3, q4]
  exact entries_eq _ _ _ _ _ i (fun j k => f1 _) (fun j => f2 _) (fun j q => f0 _) (fun k => f3 _) (f4 _)

/-- An index of the result array is in point t's block iff each coordinate is in the block's range on its axis. -/
theorem mem_blk (t : Fin cfg0.N) (i : S128x64x128.Idx) :
    i ∈ ((cfg0.win 5).blk t).view.set ↔ ∀ a : Fin 3, win0_5.index t a * S1x64x128.size a ≤ (i a).val
      ∧ (i a).val < win0_5.index t a * S1x64x128.size a + S1x64x128.size a := by
  show i ∈ ((View.whole main_v0).slice (win0_5.rect t)).set ↔ _
  rw [View.set_slice_whole, Rect.mem_set_unit]
  exact Iff.rfl

/-- Batch b of the result is point b's block: the blocks cover the array. -/
theorem cover (i : S128x64x128.Idx) :
    ∃ t : Fin cfg0.N, (cfg0.win 5).flush t = true ∧ i ∈ ((cfg0.win 5).blk t).view.set := by
  have h0 : (i 0).val < 128 := (i 0).isLt
  have h1 : (i 1).val < 64 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, -, -, -, -, e0, e1, e2⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 64 ≤ (i 1).val ∧ (i 1).val < win0_5.index t (1 : Fin 3) * 64 + 64
    rw [e1]; omega
  | ⟨2, _⟩ =>
    show win0_5.index t (2 : Fin 3) * 128 ≤ (i 2).val ∧ (i 2).val < win0_5.index t (2 : Fin 3) * 128 + 128
    rw [e2]; omega

/-- The result array after the run is the specification's array of the arguments. -/
theorem final (c : Dev nD) (hfin : FiniteArgs m c) : (dats m 0 c).arrAt 5 cfg0.N = spec m c :=
  (dats m 0 c).arrAt_eq_of_cover 5 (spec m c) (fun t _ => flushed_eq m c hfin t) cover

/-- The kernel's run: the result array at the specification's array, the arguments unchanged. -/
theorem run (hfin : ∀ c : Dev nD, FiniteArgs m c) :
    θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfin c)), (h c).2⟩) (Value.run_blocks m ρ)

end Cert.KernelIdeal.AggKernel

end
-- ==== Proof.RefEntry.lean ====
/-
  The host program's result at one index, as the edge-by-edge form.

  Entry (b, i, o) of the result is the maximum with 0 of the sum over senders j of
  (row (b, i, j) of the edge inputs · row o of the weights + bias o) · (1 - [i = j]).
  A row of the edge inputs is the join of the receiver's features (columns 0..127) with the adjacency entry times the
  join of the sender's features and the difference vector (columns 128..255 and 256..257), so the contraction over
  its 258 columns is the sum over the three ranges, each read from the argument arrays.
-/
import proofs.«162205_j33277406609831_2_alg».proof.Proof.Gen.ReferenceIdeal.Read
import proofs.«162205_j33277406609831_2_alg».proof.Proof.AggLaw
import proofs.«162205_j33277406609831_2_alg».proof.Proof.Mask
import Idealize.ShloMosaic.Lib.ValueIdx
import Idealize.ShloMosaic.Lib.Pipeline.Value

noncomputable section

namespace Cert.ReferenceIdeal.AggRef

open Cert.ReferenceIdeal Cert.ReferenceIdeal.Gen Cert.ReferenceIdeal.Read Idealize.ShloMosaic Idealize.ShloMosaic.ValueIdx
  Idealize.ShloMosaic.TcCoe Cert.Agg

variable (x0 : (⟨S128x64x64x2, .f32⟩ : BufTy).Contents (Elt Ideal)) (x1 : (⟨S128x64x128, .f32⟩ : BufTy).Contents (Elt Ideal))
  (x2 : (⟨S128x64x64, .f32⟩ : BufTy).Contents (Elt Ideal)) (x3 : (⟨S128x258, .f32⟩ : BufTy).Contents (Elt Ideal))
  (x4 : (⟨S128, .f32⟩ : BufTy).Contents (Elt Ideal))

/-! ## The two joins along the last axis, read in each piece -/

/-- The 258-column join, at a column of the first piece. -/
theorem cat258_lo {α : Type} (y1 : S128x64x64x128.Idx → α) (y2 : S128x64x64x130.Idx → α) (b : Fin 128) (i j : Fin 64)
    (k : Fin 128) :
    concatenate S128x64x64x258 3 [⟨S128x64x64x128, y1⟩, ⟨S128x64x64x130, y2⟩]
      concatenates_S128x64x64x128_S128x64x64x130_S128x64x64x258_d3 (ix4 b i j (lo k)) = y1 (ix4 b i j k) :=
  concatenate_pair_apply_left (t := S128x64x64x258) (s₁ := S128x64x64x128) (s₂ := S128x64x64x130) (3 : Fin 4) y1 y2 _ _ rfl _
    (fun a => by match a with | ⟨0, _⟩ => rfl | ⟨1, _⟩ => rfl | ⟨2, _⟩ => rfl | ⟨3, _⟩ => rfl)

/-- The 258-column join, at a column of the second piece (128 less there). -/
theorem cat258_hi {α : Type} (y1 : S128x64x64x128.Idx → α) (y2 : S128x64x64x130.Idx → α) (b : Fin 128) (i j : Fin 64)
    (k : Fin 130) (k' : Fin 258) (hk : k.val + 128 = k'.val) :
    concatenate S128x64x64x258 3 [⟨S128x64x64x128, y1⟩, ⟨S128x64x64x130, y2⟩]
      concatenates_S128x64x64x128_S128x64x64x130_S128x64x64x258_d3 (ix4 b i j k') = y2 (ix4 b i j k) :=
  concatenate_pair_apply_right (t := S128x64x64x258) (s₁ := S128x64x64x128) (s₂ := S128x64x64x130) (3 : Fin 4) y1 y2 _ _ rfl rfl _
    (fun a ha => by
      match a with
      | ⟨0, _⟩ => rfl
      | ⟨1, _⟩ => rfl
      | ⟨2, _⟩ => rfl
      | ⟨3, _⟩ => exact absurd rfl ha)
    hk

/-- The 130-column join, at a column of the first piece. -/
theorem cat130_lo {α : Type} (y1 : S128x64x64x128.Idx → α) (y2 : S128x64x64x2.Idx → α) (b : Fin 128) (i j : Fin 64)
    (k : Fin 128) (k' : Fin 130) (hk : k.val = k'.val) :
    concatenate S128x64x64x130 3 [⟨S128x64x64x128, y1⟩, ⟨S128x64x64x2, y2⟩]
      concatenates_S128x64x64x128_S128x64x64x2_S128x64x64x130_d3 (ix4 b i j k') = y1 (ix4 b i j k) :=
  concatenate_pair_apply_left (t := S128x64x64x130) (s₁ := S128x64x64x128) (s₂ := S128x64x64x2) (3 : Fin 4) y1 y2 _ _ rfl _
    (fun a => by
      match a with
      | ⟨0, _⟩ => rfl
      | ⟨1, _⟩ => rfl
      | ⟨2, _⟩ => rfl
      | ⟨3, _⟩ => exact hk)

/-- The 130-column join, at a column of the second piece (128 less there). -/
theorem cat130_hi {α : Type} (y1 : S128x64x64x128.Idx → α) (y2 : S128x64x64x2.Idx → α) (b : Fin 128) (i j : Fin 64)
    (c : Fin 2) (k' : Fin 130) (hk : c.val + 128 = k'.val) :
    concatenate S128x64x64x130 3 [⟨S128x64x64x128, y1⟩, ⟨S128x64x64x2, y2⟩]
      concatenates_S128x64x64x128_S128x64x64x2_S128x64x64x130_d3 (ix4 b i j k') = y2 (ix4 b i j c) :=
  concatenate_pair_apply_right (t := S128x64x64x130) (s₁ := S128x64x64x128) (s₂ := S128x64x64x2) (3 : Fin 4) y1 y2 _ _ rfl rfl _
    (fun a ha => by
      match a with
      | ⟨0, _⟩ => rfl
      | ⟨1, _⟩ => rfl
      | ⟨2, _⟩ => rfl
      | ⟨3, _⟩ => exact absurd rfl ha)
    hk

/-! ## The broadcasts, read at an edge (b, i, j) -/

/-- The receiver's feature k, broadcast over the senders. -/
theorem recv_eq (b : Fin 128) (i j : Fin 64) (k : Fin 128) :
    val_main_v1 (F := Ideal) x1 (ix4 b i j k) = x1 (ix3 b i k) := by
  rw [val_main_v1_apply, val_main_v0_apply]
  exact congrArg x1 (funext fun a => Fin.ext (by match a with | ⟨0, _⟩ => rfl | ⟨1, _⟩ => rfl | ⟨2, _⟩ => rfl))

/-- The sender's feature k, broadcast over the receivers. -/
theorem send_eq (b : Fin 128) (i j : Fin 64) (k : Fin 128) :
    val_main_v3 (F := Ideal) x1 (ix4 b i j k) = x1 (ix3 b j k) := by
  rw [val_main_v3_apply, val_main_v2_apply]
  exact congrArg x1 (funext fun a => Fin.ext (by match a with | ⟨0, _⟩ => rfl | ⟨1, _⟩ => rfl | ⟨2, _⟩ => rfl))

/-- The adjacency entry, broadcast over the 130 message columns. -/
theorem adj_eq (b : Fin 128) (i j : Fin 64) (k : Fin 130) :
    val_main_v6 (F := Ideal) x2 (ix4 b i j k) = x2 (ix3 b i j) := by
  rw [val_main_v6_apply, val_main_v4_apply]
  exact congrArg x2 (funext fun a => Fin.ext (by match a with | ⟨0, _⟩ => rfl | ⟨1, _⟩ => rfl | ⟨2, _⟩ => rfl))

/-- The bias, broadcast over the edges. -/
theorem bias_eq (b : Fin 128) (i j : Fin 64) (o : Fin 128) :
    val_main_v11 (F := Ideal) x4 (ix4 b i j o) = x4 (ix1 o) := by
  rw [val_main_v11_apply, val_main_v10_apply]
  exact congrArg x4 (funext fun a => Fin.ext (by match a with | ⟨0, _⟩ => rfl))

/-- The mask `1 - [i = j]`, broadcast over batches and channels. -/
theorem mask_eq (b : Fin 128) (i j : Fin 64) (o : Fin 128) :
    val_main_v22 (F := Ideal) (ix4 b i j o) = 1 - eqd i j := by
  rw [val_main_v22_apply, val_main_v21_apply, val_main_v20_apply, val_main_v19_apply, val_main_cst_apply,
    val_main_v18_apply, val_main_v17_apply, val_main_v16_apply, val_main_v13_apply, val_main_v15_apply,
    val_main_c_apply, val_main_v14_apply]
  show FloatOps.subf (FloatOps.ofBits (F := Ideal) .f32 0x3F800000#32)
      (FloatOps.uitofp (F := Ideal) .f32
        (IntOp.cmpi .eq (IntOp.addi (BitVec.ofNat 32 i.val) 0#32) (BitVec.ofNat 32 j.val))) = 1 - eqd i j
  rw [refMask, Ideal.ofBits_def, ofBits_one]
  rfl

/-! ## A row of the edge inputs, column range by column range -/

theorem inp_lo (b : Fin 128) (i j : Fin 64) (k : Fin 128) :
    val_main_v8 (F := Ideal) x0 x1 x2 (ix4 b i j (lo k)) = x1 (ix3 b i k) := by
  unfold val_main_v8
  rw [cat258_lo, recv_eq]

theorem inp_mid (b : Fin 128) (i j : Fin 64) (k : Fin 128) :
    val_main_v8 (F := Ideal) x0 x1 x2 (ix4 b i j (mid k)) = x2 (ix3 b i j) * x1 (ix3 b j k) := by
  unfold val_main_v8
  rw [cat258_hi _ _ b i j (⟨k.val, by have := k.isLt; omega⟩ : Fin 130) (mid k)
    (by show k.val + 128 = 128 + k.val; omega), val_main_v7_apply, adj_eq]
  unfold val_main_v5
  rw [cat130_lo _ _ b i j k _ rfl, send_eq]
  rfl

theorem inp_hi (b : Fin 128) (i j : Fin 64) (c : Fin 2) :
    val_main_v8 (F := Ideal) x0 x1 x2 (ix4 b i j (hi c)) = x2 (ix3 b i j) * x0 (ix4 b i j c) := by
  unfold val_main_v8
  rw [cat258_hi _ _ b i j (⟨128 + c.val, by have := c.isLt; omega⟩ : Fin 130) (hi c)
    (by show 128 + c.val + 128 = 128 + (128 + c.val); omega), val_main_v7_apply, adj_eq]
  unfold val_main_v5
  rw [cat130_hi _ _ b i j c _ (by show c.val + 128 = 128 + c.val; omega)]
  rfl

theorem lidx_eq (b : Fin 128) (i j : Fin 64) (o : Fin 128) (k : Fin 258) :
    lidx_main_v9 (ix4 b i j o) k = ix4 b i j k :=
  funext fun a => Fin.ext (by match a with | ⟨0, _⟩ => rfl | ⟨1, _⟩ => rfl | ⟨2, _⟩ => rfl | ⟨3, _⟩ => rfl)

theorem ridx_eq (b : Fin 128) (i j : Fin 64) (o : Fin 128) (k : Fin 258) :
    ridx_main_v9 (ix4 b i j o) k = ix2 o k :=
  funext fun a => Fin.ext (by match a with | ⟨0, _⟩ => rfl | ⟨1, _⟩ => rfl)

/-! ## One edge's term, and the entry -/

/-- The term of edge (i, j) of batch b at channel o. -/
theorem ref_edge (b : Fin 128) (i j : Fin 64) (o : Fin 128) :
    val_main_v23 (F := Ideal) x0 x1 x2 x3 x4 (ix4 b i j o)
      = ((∑ k : Fin 128, x1 (ix3 b i k) * x3 (ix2 o (lo k))
          + (∑ k : Fin 128, (x2 (ix3 b i j) * x1 (ix3 b j k)) * x3 (ix2 o (mid k))
            + ∑ c : Fin 2, (x2 (ix3 b i j) * x0 (ix4 b i j c)) * x3 (ix2 o (hi c)))) + x4 (ix1 o))
        * (1 - eqd i j) := by
  rw [val_main_v23_apply, val_main_v12_apply, val_main_v9_apply, sum_split, mask_eq, bias_eq]
  simp only [lidx_eq, ridx_eq, inp_lo, inp_mid, inp_hi]
  rfl

/-- Entry (b, i, o) of the host program's result is the edge-by-edge form of the arguments' rows. -/
theorem ref_entry (b : Fin 128) (i : Fin 64) (o : Fin 128) :
    val_main_v25 (F := Ideal) x0 x1 x2 x3 x4 (ix3 b i o)
      = refEntry (fun j k => x1 (ix3 b j k)) (fun j => x2 (ix3 b i j)) (fun j c => x0 (ix4 b i j c))
          (fun k => x3 (ix2 o k)) (x4 (ix1 o)) i := by
  rw [val_main_v25_apply, val_main_v24_apply, val_main_call0_v0_apply, val_main_call0_cst_apply,
    val_main_cst_0_apply]
  have e : ∀ j : Fin 64, idx_main_v24 (ix3 b i o) j = ix4 b i j o := fun j =>
    funext fun a => Fin.ext (by match a with | ⟨0, _⟩ => rfl | ⟨1, _⟩ => rfl | ⟨2, _⟩ => rfl | ⟨3, _⟩ => rfl)
  simp only [e, ref_edge, Ideal.ofBits_def, ofBits_zero]
  rfl

end Cert.ReferenceIdeal.AggRef

end
-- ==== Proof.RefArray.lean ====
/-
  The host program's whole result is the specification's array.
-/
import proofs.«162205_j33277406609831_2_alg».proof.Proof.RefEntry
import proofs.«162205_j33277406609831_2_alg».proof.Proof.AggArray

noncomputable section

namespace Cert.ReferenceIdeal.AggRef

open Cert.ReferenceIdeal Cert.ReferenceIdeal.Gen Cert.ReferenceIdeal.Read Idealize.ShloMosaic Idealize.ShloMosaic.ValueIdx
  Idealize.ShloMosaic.TcCoe Cert.Agg

theorem ref_array (x0 : (⟨S128x64x64x2, .f32⟩ : BufTy).Contents (Elt Ideal)) (x1 : (⟨S128x64x128, .f32⟩ : BufTy).Contents (Elt Ideal))
    (x2 : (⟨S128x64x64, .f32⟩ : BufTy).Contents (Elt Ideal)) (x3 : (⟨S128x258, .f32⟩ : BufTy).Contents (Elt Ideal))
    (x4 : (⟨S128, .f32⟩ : BufTy).Contents (Elt Ideal)) :
    val_main_v25 (F := Ideal) x0 x1 x2 x3 x4 = aggArray x0 x1 x2 x3 x4 := by
  funext idx
  obtain ⟨b, i, o, rfl⟩ : ∃ (b : Fin 128) (i : Fin 64) (o : Fin 128), idx = ix3 b i o :=
    ⟨idx 0, idx 1, idx 2, eq_ix3 idx⟩
  exact ref_entry x0 x1 x2 x3 x4 b i o

end Cert.ReferenceIdeal.AggRef

end
-- ==== Proof.Finite.lean ====
/-
  From the precondition to "every input entry is a real number".

  The precondition is the conjunction, over the five argument arrays, of `all (|x| < +inf)`.  A conjunction of one-bit
  words that is 1 has every conjunct 1; an `all` that is 1 has every element 1; `|a| < +inf` on the extended reals, with
  `|a| = max a (-a)`, says that a is neither infinity.
-/
import proofs.«162205_j33277406609831_2_alg».proof.Pre_finite_inputs
import proofs.«162205_j33277406609831_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.AggFinite

open Cert.Pre_finite_inputs Cert.Pre_finite_inputs.Gen Idealize.ShloMosaic Idealize.ShloMosaic.ValueIdx

/-- The word of `+inf` denotes the top of the extended reals. -/
theorem inf_bits : Ideal.ofBits .f32 0x7F800000#32 = ⊤ := by
  simp [Ideal.ofBits, Ideal.ieee]

/-- `|a| < +inf` leaves a real number. -/
theorem finite_of_abs_lt (a : EReal) (h : Ideal.cmp .olt (max a (-a)) ⊤ = 1#1) : a ≠ ⊤ ∧ a ≠ ⊥ := by
  simp only [Ideal.cmp] at h
  have h2 : max a (-a) < ⊤ := by
    by_contra hn
    rw [decide_eq_false hn] at h
    exact absurd h (by decide)
  constructor
  · rintro rfl; simp at h2
  · rintro rfl; simp at h2

instance : Subsingleton (⟨0, ![]⟩ : Shape).Idx := ⟨fun a b => funext fun d => d.elim0⟩

/-- One array's conjunct: `all (|x| < +inf) = 1` makes every entry of x a real number. -/
theorem all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) (i : s.Idx) :
    x i ≠ ⊤ ∧ x i ≠ ⊥ := by
  have h1 := Host.reduce_andi_all _ _ hr hu ix0 e i
  have eb : broadcastInDim s ![] hb (constant (F := Ideal) ⟨0, ![]⟩ .f32 0x7F800000#32) i
      = Ideal.ofBits .f32 0x7F800000#32 :=
    broadcastInDim_apply _ hb _ i ix0 (fun a => a.elim0)
  have h2 : Ideal.cmp .olt (max (x i) (-(x i))) ⊤ = 1#1 := by
    rw [← inf_bits, ← eb]; exact h1
  exact finite_of_abs_lt _ h2

/-- The precondition makes every entry of every argument array a real number. -/
theorem finite_of_pre (x0 : FVec Ideal S128x64x64x2 .f32) (x1 : FVec Ideal S128x64x128 .f32)
    (x2 : FVec Ideal S128x64x64 .f32) (x3 : FVec Ideal S128x258 .f32) (x4 : FVec Ideal S128 .f32)
    (h : fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥)
      ∧ (∀ i, x3 i ≠ ⊤ ∧ x3 i ≠ ⊥) ∧ (∀ i, x4 i ≠ ⊤ ∧ x4 i ≠ ⊥) := by
  have h0 := congrFun h ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => all_finite x0 _ _ _ e0 i, fun i => all_finite x1 _ _ _ e1 i, fun i => all_finite x2 _ _ _ e2 i,
    fun i => all_finite x3 _ _ _ e3 i, fun i => all_finite x4 _ _ _ e4 i⟩

end Cert.Pre_finite_inputs.AggFinite

end
-- ==== Proof.lean ====
/-
  The certificate's five claims, assembled.

  The two programs compute, for every batch b, receiver i and channel o,
    relu ( Σ_{j ≠ i}  W[o, :] · [ f_i ; A_ij · f_j ; A_ij · diff_ij ]  +  bias[o] ).
  The host program does it edge by edge: it joins the receiver's features with the adjacency-weighted sender
  features and difference vector, applies the linear layer to all 64 × 64 edges, masks the diagonal with
  1 - [i = j] and sums over the senders.  The kernel, one batch per grid point, uses linearity to pull the layer
  out of the sum: 63 · (f_i · W₁ᵀ + bias) + (A ∘ offdiag) · (f · W₂ᵀ) + (Σ_j (A ∘ offdiag)_ij diff_ij) · W₃ᵀ.
  On the extended reals the two agree when every input is a real number (distributivity, x · 0 = 0, and a row of
  the off-diagonal mask summing to 63), which the precondition says.

  Both runs end at the SAME array of the arguments (Proof/AggArray.lean): the kernel's from what each grid point
  writes back and the blocks' cover (Proof/KernelEntry.lean, Proof/KernelArray.lean, over the generated value leg),
  the host program's from its run read operation by operation (Proof/RefEntry.lean, Proof/RefArray.lean, over the
  generated run); the law joining the two forms is Proof/AggLaw.lean, the masks Proof/Mask.lean, the finiteness of
  the inputs Proof/Finite.lean.  The three frames are the generated ones; the idealization rewrote nothing.
-/
import proofs.«162205_j33277406609831_2_alg».proof.Defs
import proofs.«162205_j33277406609831_2_alg».proof.Proof.Gen.Kernel
import proofs.«162205_j33277406609831_2_alg».proof.Proof.Gen.Kernel.Skeleton
import proofs.«162205_j33277406609831_2_alg».proof.Proof.Gen.Kernel.Launch
import proofs.«162205_j33277406609831_2_alg».proof.Proof.Gen.Kernel.Points
import proofs.«162205_j33277406609831_2_alg».proof.Proof.Gen.Kernel.Frame
import proofs.«162205_j33277406609831_2_alg».proof.Proof.Gen.KernelIdeal
import proofs.«162205_j33277406609831_2_alg».proof.Proof.Gen.KernelIdeal.Skeleton
import proofs.«162205_j33277406609831_2_alg».proof.Proof.Gen.KernelIdeal.Launch
import proofs.«162205_j33277406609831_2_alg».proof.Proof.Gen.KernelIdeal.Points
import proofs.«162205_j33277406609831_2_alg».proof.Proof.Gen.KernelIdeal.Frame
import proofs.«162205_j33277406609831_2_alg».proof.Proof.Gen.ReferenceIdeal
import proofs.«162205_j33277406609831_2_alg».proof.Proof.Gen.Pre_finite_inputs
import proofs.«162205_j33277406609831_2_alg».proof.Proof.Gen.KernelIdeal.Value
import proofs.«162205_j33277406609831_2_alg».proof.Proof.Gen.ReferenceIdeal.Run
import proofs.«162205_j33277406609831_2_alg».proof.Proof.Gen.ReferenceIdeal.Read
import proofs.«162205_j33277406609831_2_alg».proof.Proof.KernelArray
import proofs.«162205_j33277406609831_2_alg».proof.Proof.RefArray
import proofs.«162205_j33277406609831_2_alg».proof.Proof.Finite
import Idealize.ShloMosaic.Adequacy
import Idealize.ShloMosaic.Init

noncomputable section

namespace Cert.Proof

open Idealize.ShloMosaic Idealize.SL.Sem Idealize.ShloMosaic.TcCoe

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The host program runs and keeps its arguments: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, every one finite, both runs end with the first result the difference
    vectors as given and the second the specification's array of the arguments. -/
theorem algebraic : Cert.algebraic_KernelIdeal_ReferenceIdeal := by
  intro m ρ m' ρ' hpre hagree
  have hfin : ∀ c : Dev Cert.KernelIdeal.nD, Cert.KernelIdeal.AggKernel.FiniteArgs m c := fun c =>
    Cert.Pre_finite_inputs.AggFinite.finite_of_pre _ _ _ _ _ (hpre c)
  refine ⟨fun c => m ((c : Thread Cert.KernelIdeal.nD Cert.KernelIdeal.τ).loc Cert.KernelIdeal.main_arg0), fun c => Cert.KernelIdeal.AggKernel.spec m c, ?_, ?_⟩
  · exact (θ_run Cert.KernelIdeal.defs _ _).mono (fun r h c => ⟨(h c).2.1, (h c).1, (h c).2⟩) (Cert.KernelIdeal.AggKernel.run m ρ hfin)
  · refine (θ_run Cert.ReferenceIdeal.defs _ _).mono (fun r h c => ⟨(h c).1.trans (hagree c).1, ?_, (h c).2.2⟩)
      (Cert.ReferenceIdeal.Value.run (F := Ideal) m' ρ')
    rw [(h c).2.1, Cert.ReferenceIdeal.Read.val_main_v25_eq, Cert.ReferenceIdeal.AggRef.ref_array, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
